-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S5000x128 : Shape := ⟨2, ![5000, 128]⟩
abbrev S1x128 : Shape := ⟨2, ![1, 128]⟩

abbrev nBuf : Space → Nat
  | .hbm => 54
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S850000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000x128, .f32⟩
  | .hbm, ⟨46, _⟩ => ⟨S850000x1, .f32⟩
  | .hbm, ⟨47, _⟩ => ⟨S850000x128, .f32⟩
  | .hbm, ⟨48, _⟩ => ⟨S850000x128, .f32⟩
  | .hbm, ⟨49, _⟩ => ⟨S_, .f32⟩
  | .hbm, ⟨50, _⟩ => ⟨S50000x128, .f32⟩
  | .hbm, ⟨51, _⟩ => ⟨S850000x1, .i32⟩
  | .hbm, ⟨52, _⟩ => ⟨S50000x128, .f32⟩
  | .hbm, ⟨53, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v39) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S850000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S50000x128, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x128, .f32⟩
  | .hbm, ⟨47, _⟩ => ⟨S850000x1, .f32⟩
  | .hbm, ⟨48, _⟩ => ⟨S850000x128, .f32⟩
  | .hbm, ⟨49, _⟩ => ⟨S850000x128, .f32⟩
  | .hbm, ⟨50, _⟩ => ⟨S_, .f32⟩
  | .hbm, ⟨51, _⟩ => ⟨S50000x128, .f32⟩
  | .hbm, ⟨52, _⟩ => ⟨S850000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibRowGather.lean ====
/-
  Rows gathered and scatter-added through an index column.

  For an array `H : [N, C]` and a column of start indices `idx : [E, 1]`, the gather that takes row `idx[e]` for every
  `e` reads `H` at the start index taken signed and clamped into `[0, N - 1]`; the same for a vector `D : [N]`. The
  scatter-add of updates `u : [E, C]` through a column of indices adds `u[e, c]` to element `(idx[e], c)` when the
  signed index lies in `[0, N)` and drops it otherwise. So an update that lands on row `n` has index word `n`, and
  a factor that depends only on the landing row — nonnegative and not `+∞`, so that it distributes over a sum of
  extended reals — moves out of the scatter-add.
-/
import Mathlib
import Idealize.ShloMosaic.PureOps.Ideal
import Idealize.ShloMosaic.PureOps.Ideal.Laws
import Idealize.ShloMosaic.Lib.ValueIdx

noncomputable section

open scoped BigOperators

namespace Cert.LibRowGather

open Idealize.ShloMosaic Idealize.ShloMosaic.ValueIdx

variable {α : Type}

/-- Dimension numbers of `D[idx]` for `D : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of `H[idx]` (whole rows) for `H : [N, C]`, `idx : [E, 1]`, result `[E, C]`. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of the row scatter: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index-column position of edge `e`. -/
abbrev edgeIdx {E : Nat} (e : Fin E) : (⟨2, ![E, 1]⟩ : Shape).Idx := ix2 e (0 : Fin 1)

/-- A start-index word read signed and clamped into `[0, N - 1]`. -/
def rowOf (N : Nat) (hN : 0 < N) {w : Nat} (b : BitVec w) : Fin N := ⟨min b.toInt.toNat (N - 1), by omega⟩

/-- A word whose signed value is a row number below `N` clamps to that row. -/
theorem rowOf_of_toInt {N : Nat} (hN : 0 < N) {w : Nat} (b : BitVec w) (n : Fin N) (h : b.toInt = (n.val : ℤ)) :
    rowOf N hN b = n := by
  refine Fin.ext ?_
  unfold rowOf
  show min b.toInt.toNat (N - 1) = n.val
  rw [h, Int.toNat_natCast]
  have := n.isLt
  omega

/-- The vector gather at edge `e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf N hN (idx (edgeIdx e)))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = edgeIdx e := by
    funext b; refine Fin.ext ?_
    match b with
    | ⟨0, _⟩ => rfl
    | ⟨1, _⟩ => rfl
  rw [hsi]
  rfl

/-- The row gather at edge `e`, lane `c`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (rowOf N hN (idx (edgeIdx e))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = edgeIdx e := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (show ¬ (1 : Fin 2) ∈ (rowDims N E C wf).startIndexMap from
        (by decide : ¬ (1 : Fin 2) ∈ ([0] : List (Fin 2))))]
    have ho : (rowDims N E C wf).offCoord (ix2 e c) 1 = c.val := by
      unfold GatherDims.offCoord
      rw [dif_pos (show (1 : Fin 2) ∈ (rowDims N E C wf).sKept from
        (GatherDims.mem_sKept _ _).mpr ⟨(by decide : ¬ (1 : Fin 2) ∈ ([0] : List (Fin 2))), List.not_mem_nil⟩)]
      rfl
    rw [hs, ho, Nat.zero_add]

/-- An update `(e, c)` that the row scatter lands on element `(n, c')` has index word `n` (signed) and `c = c'`. -/
theorem scatter_row_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (edgeIdx e)).toInt = (n.val : ℤ) ∧ c = c' := by
  have hs0 : (rowScatterDims N E C wf).start (ix2 e c) idx 0 = (idx (edgeIdx e)).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hs1 : (rowScatterDims N E C wf).start (ix2 e c) idx 1 = 0 := by
    unfold ScatterDims.start
    rw [dif_neg (show ¬ (1 : Fin 2) ∈ (rowScatterDims N E C wf).scatterDimsToOperandDims from
      (by decide : ¬ (1 : Fin 2) ∈ ([0] : List (Fin 2))))]
  have hw0 : (rowScatterDims N E C wf).window (ix2 e c) 0 = 0 := by
    unfold ScatterDims.window
    rw [dif_neg (show ¬ (0 : Fin 2) ∈ (rowScatterDims N E C wf).sKept from
      (by decide : ¬ (0 : Fin 2) ∈ (List.finRange 2).filter (fun a => a ∉ ([0] : List (Fin 2)))))]
  have hw1 : (rowScatterDims N E C wf).window (ix2 e c) 1 = c.val := by
    unfold ScatterDims.window
    rw [dif_pos (show (1 : Fin 2) ∈ (rowScatterDims N E C wf).sKept from
      (by decide : (1 : Fin 2) ∈ (List.finRange 2).filter (fun a => a ∉ ([0] : List (Fin 2)))))]
    rfl
  unfold ScatterDims.resultIdx? at h
  split at h
  · rename_i hall
    have h' := Option.some.inj h
    have h0 : ((rowScatterDims N E C wf).start (ix2 e c) idx 0 + (rowScatterDims N E C wf).window (ix2 e c) 0).toNat
        = n.val := congrArg (fun f => (f 0).val) h'
    have h1 : ((rowScatterDims N E C wf).start (ix2 e c) idx 1 + (rowScatterDims N E C wf).window (ix2 e c) 1).toNat
        = c'.val := congrArg (fun f => (f 1).val) h'
    have ha0 := (hall 0).1
    rw [hs0, hw0] at h0 ha0
    rw [hs1, hw1] at h1
    refine ⟨?_, Fin.ext ?_⟩
    · omega
    · omega
  · exact absurd h (by simp)

/-- A nonnegative factor other than `+∞` distributes over a finite sum of extended reals. -/
theorem mul_sum_of_nonneg_ne_top {ι : Type*} (s : Finset ι) (f : ι → EReal) {a : EReal} (h0 : 0 ≤ a) (ht : a ≠ ⊤) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- A factor `a` (nonnegative, not `+∞`) carried by every update that lands on element `i` moves out of the
    scatter-add into zero at `i`. -/
theorem hostScatterAdd_scale {s si su : Shape} (d : ScatterDims s si su) {w : Nat} (Z : s.Idx → EReal) (idx : IVec si w)
    (f g : su.Idx → EReal) (i : s.Idx) (hZ : Z i = 0) {a : EReal} (h0 : 0 ≤ a) (ht : a ≠ ⊤)
    (hfg : ∀ j, d.resultIdx? j idx = some i → f j = a * g j) :
    Ideal.hostScatterAdd d Z idx f i = a * Ideal.hostScatterAdd d Z idx g i := by
  show Z i + _ = a * (Z i + _)
  rw [hZ, zero_add, zero_add, mul_sum_of_nonneg_ne_top _ _ h0 ht]
  refine Finset.sum_congr rfl fun j hj => ?_
  exact hfg j (Finset.mem_filter.mp hj).2

/-- Equal updates on what lands at `i` give equal scatter-adds at `i`. -/
theorem hostScatterAdd_congr {s si su : Shape} (d : ScatterDims s si su) {w : Nat} (Z Z' : s.Idx → EReal) (idx : IVec si w)
    (f g : su.Idx → EReal) (i : s.Idx) (hZ : Z i = Z' i)
    (hfg : ∀ j, d.resultIdx? j idx = some i → f j = g j) :
    Ideal.hostScatterAdd d Z idx f i = Ideal.hostScatterAdd d Z' idx g i := by
  show Z i + _ = Z' i + _
  rw [hZ]
  congr 1
  refine Finset.sum_congr rfl fun j hj => ?_
  exact hfg j (Finset.mem_filter.mp hj).2

/-- The reciprocal square root of an extended real that is at least one is a nonnegative extended real other than `+∞`. -/
theorem rsqrt_of_one_le (y : EReal) (h : 1 ≤ y) : 0 ≤ Ideal.rsqrt y ∧ Ideal.rsqrt y ≠ ⊤ := by
  induction y using EReal.rec with
  | bot => exact absurd h (not_le.mpr (EReal.bot_lt_coe 1))
  | top => exact ⟨le_refl _, EReal.zero_ne_top⟩
  | coe r =>
    have hr : (1 : ℝ) ≤ r := by exact_mod_cast h
    have h1 : ¬ r < 0 := by linarith
    have h2 : ¬ r = 0 := by intro h0; rw [h0] at hr; linarith
    have hv : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [hv]
    exact ⟨EReal.coe_nonneg.mpr (inv_nonneg.mpr (Real.sqrt_nonneg r)), EReal.coe_ne_top _⟩

end Cert.LibRowGather

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.EdgeSum.lean ====
/-
  A graph convolution's weighted neighbourhood sum, with the weight matrix applied after or before the sum.

  Nodes carry feature rows x : [50000, 128]. Every edge e has a source word src[e] (read signed and clamped into the
  node range), a destination word dst[e] (an edge lands on node n exactly when its destination word, read signed, is n)
  and a weight nrm[e]. With a weight matrix w : [128, 128] and a bias b : [128]:

    * "sum first":     the dense layer max ((Σ_k a[n, k] · w[k, c]) + b[c]) 0 of a[n, k] = 0 + Σ_{e lands on n} x[src e, k] · nrm[e]
    * "product first": max ((0 + Σ_{e lands on n} (Σ_k x[src e, k] · w[k, c]) · nrm[e]) + b[c]) 0

  The two agree when the features, the matrix and the edge weights are real numbers: then the double sum over
  (e, k) of x[src e, k] · nrm[e] · w[k, c] may be taken in either order. (With infinite entries it may not: a product
  does not distribute over a sum that mixes +∞ and −∞.) The bias is added and the maximum taken on both sides alike,
  so the bias needs no hypothesis.
-/
import Mathlib
import Idealize.ShloMosaic.PureOps.Ideal
import Idealize.ShloMosaic.Lib.ValueIdx
import proofs.«161700_j56006373539865_1_alg».proof.Proof.LibRowGather
import proofs.«161700_j56006373539865_1_alg».proof.Proof.LibRealSum

noncomputable section

open scoped BigOperators

namespace Cert.EdgeSum

open Idealize.ShloMosaic Idealize.ShloMosaic.ValueIdx Cert.LibRowGather Cert.LibRealSum

/-- There is at least one node. -/
theorem nodes_pos : 0 < 50000 := by norm_num

/-- The node an edge's source word names: the word read signed and clamped into the node range. -/
abbrev node (b : BitVec 32) : Fin 50000 := rowOf 50000 nodes_pos b

/-- The edges that land on node `n`: those whose destination word, read signed, is `n`. -/
def landing (dst : IVec ⟨2, ![850000, 1]⟩ 32) (n : Fin 50000) : Finset (Fin 850000) :=
  Finset.univ.filter (fun e : Fin 850000 => (dst (edgeIdx e)).toInt = (n.val : ℤ))

/-- The weighted sum of the source rows of the edges landing on each node, from zero. -/
def agg (x : (⟨2, ![50000, 128]⟩ : Shape).Idx → EReal) (src dst : IVec ⟨2, ![850000, 1]⟩ 32)
    (nrm : (⟨1, ![850000]⟩ : Shape).Idx → EReal) : (⟨2, ![50000, 128]⟩ : Shape).Idx → EReal :=
  fun i => 0 + ∑ e ∈ landing dst (i 0), x (ix2 (node (src (edgeIdx e))) (i 1)) * nrm (ix1 e)

theorem agg_apply (x : (⟨2, ![50000, 128]⟩ : Shape).Idx → EReal) (src dst : IVec ⟨2, ![850000, 1]⟩ 32)
    (nrm : (⟨1, ![850000]⟩ : Shape).Idx → EReal) (n : Fin 50000) (k : Fin 128) :
    agg x src dst nrm (ix2 n k) = 0 + ∑ e ∈ landing dst n, x (ix2 (node (src (edgeIdx e))) k) * nrm (ix1 e) := rfl

/-- The same with the landing set spelt out. -/
theorem agg_apply' (x : (⟨2, ![50000, 128]⟩ : Shape).Idx → EReal) (src dst : IVec ⟨2, ![850000, 1]⟩ 32)
    (nrm : (⟨1, ![850000]⟩ : Shape).Idx → EReal) (n : Fin 50000) (k : Fin 128) :
    agg x src dst nrm (ix2 n k)
      = 0 + ∑ e ∈ Finset.univ.filter (fun e : Fin 850000 => (dst (edgeIdx e)).toInt = (n.val : ℤ)),
          x (ix2 (node (src (edgeIdx e))) k) * nrm (ix1 e) := rfl

/-- The dense layer on rows: the weight matrix, the bias, the clip at zero. Row n of the result reads row n of `a` alone. -/
def layer (a : (⟨2, ![50000, 128]⟩ : Shape).Idx → EReal) (w : (⟨2, ![128, 128]⟩ : Shape).Idx → EReal)
    (b : (⟨1, ![128]⟩ : Shape).Idx → EReal) : (⟨2, ![50000, 128]⟩ : Shape).Idx → EReal :=
  fun i => max ((∑ k : Fin 128, a (ix2 (i 0) k) * w (ix2 k (i 1))) + b (ix1 (i 1))) 0

theorem layer_apply (a : (⟨2, ![50000, 128]⟩ : Shape).Idx → EReal) (w : (⟨2, ![128, 128]⟩ : Shape).Idx → EReal)
    (b : (⟨1, ![128]⟩ : Shape).Idx → EReal) (n : Fin 50000) (c : Fin 128) :
    layer a w b (ix2 n c) = max ((∑ k : Fin 128, a (ix2 n k) * w (ix2 k c)) + b (ix1 c)) 0 := rfl

/-- Sum first, then the dense layer. -/
def sumFirst (x : (⟨2, ![50000, 128]⟩ : Shape).Idx → EReal) (w : (⟨2, ![128, 128]⟩ : Shape).Idx → EReal)
    (b : (⟨1, ![128]⟩ : Shape).Idx → EReal) (src dst : IVec ⟨2, ![850000, 1]⟩ 32)
    (nrm : (⟨1, ![850000]⟩ : Shape).Idx → EReal) : (⟨2, ![50000, 128]⟩ : Shape).Idx → EReal :=
  layer (agg x src dst nrm) w b

/-- The weight matrix first, then the sum over the landing edges, the bias and the clip at zero. -/
def productFirst (x : (⟨2, ![50000, 128]⟩ : Shape).Idx → EReal) (w : (⟨2, ![128, 128]⟩ : Shape).Idx → EReal)
    (b : (⟨1, ![128]⟩ : Shape).Idx → EReal) (src dst : IVec ⟨2, ![850000, 1]⟩ 32)
    (nrm : (⟨1, ![850000]⟩ : Shape).Idx → EReal) : (⟨2, ![50000, 128]⟩ : Shape).Idx → EReal :=
  fun i => max ((0 + ∑ e ∈ landing dst (i 0),
      (∑ k : Fin 128, x (ix2 (node (src (edgeIdx e))) k) * w (ix2 k (i 1))) * nrm (ix1 e)) + b (ix1 (i 1))) 0

theorem productFirst_apply (x : (⟨2, ![50000, 128]⟩ : Shape).Idx → EReal) (w : (⟨2, ![128, 128]⟩ : Shape).Idx → EReal)
    (b : (⟨1, ![128]⟩ : Shape).Idx → EReal) (src dst : IVec ⟨2, ![850000, 1]⟩ 32)
    (nrm : (⟨1, ![850000]⟩ : Shape).Idx → EReal) (n : Fin 50000) (c : Fin 128) :
    productFirst x w b src dst nrm (ix2 n c)
      = max ((0 + ∑ e ∈ Finset.univ.filter (fun e : Fin 850000 => (dst (edgeIdx e)).toInt = (n.val : ℤ)),
          (∑ k : Fin 128, x (ix2 (node (src (edgeIdx e))) k) * w (ix2 k c)) * nrm (ix1 e)) + b (ix1 c)) 0 := rfl

/-- THE LAW: with real features, real matrix entries and real edge weights the two arrangements agree. -/
theorem sumFirst_eq_productFirst (x : (⟨2, ![50000, 128]⟩ : Shape).Idx → EReal)
    (w : (⟨2, ![128, 128]⟩ : Shape).Idx → EReal) (b : (⟨1, ![128]⟩ : Shape).Idx → EReal)
    (src dst : IVec ⟨2, ![850000, 1]⟩ 32) (nrm : (⟨1, ![850000]⟩ : Shape).Idx → EReal)
    (hx : ∀ i, IsReal (x i)) (hw : ∀ i, IsReal (w i)) (hn : ∀ i, IsReal (nrm i)) :
    sumFirst x w b src dst nrm = productFirst x w b src dst nrm := by
  funext i
  unfold sumFirst productFirst layer
  refine congrArg (fun s => max (s + b (ix1 (i 1))) 0) ?_
  show ∑ k : Fin 128, (0 + ∑ e ∈ landing dst (i 0), x (ix2 (node (src (edgeIdx e))) k) * nrm (ix1 e)) * w (ix2 k (i 1))
    = 0 + ∑ e ∈ landing dst (i 0), (∑ k : Fin 128, x (ix2 (node (src (edgeIdx e))) k) * w (ix2 k (i 1))) * nrm (ix1 e)
  simp only [zero_add]
  exact (sum_mul_sum_swap (landing dst (i 0)) (fun e k => x (ix2 (node (src (edgeIdx e))) k))
    (fun e => nrm (ix1 e)) (fun k => w (ix2 k (i 1))) (fun e k => hx _) (fun e => hn _) (fun k => hw _)).symm

end Cert.EdgeSum

end
-- ==== Proof.LibVecScatterLands.lean ====
/-
  A scatter-add into a vector through an index column: where an update lands, and a lower bound for an entry.

  For an operand [N], indices [E, 1] and updates [E] (no window axes: update e is one number), update e lands on
  entry n when the signed index word of e is n. Over the extended reals the scatter-add at an entry is the operand's entry
  plus the sum of the updates that land there; so when the operand's entry and all updates are nonnegative, every update
  that lands on an entry is a lower bound for it. (Counting with updates all equal to one, an entry is at least one as
  soon as one update lands on it.)
-/
import Mathlib
import Idealize.ShloMosaic.PureOps.Ideal
import Idealize.ShloMosaic.PureOps.Ideal.Laws
import Idealize.ShloMosaic.Lib.ValueIdx
import proofs.«161700_j56006373539865_1_alg».proof.Proof.LibRowGather

noncomputable section

open scoped BigOperators

namespace Cert.LibVecScatterLands

open Idealize.ShloMosaic Idealize.ShloMosaic.ValueIdx Cert.LibRowGather

/-- Dimension numbers of the vector scatter: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat}

/-- Update e whose signed index word is n lands on entry n. -/
theorem lands_of_word (wf : ScatterDims.WF ⟨1, ![N]⟩ ⟨2, ![E, 1]⟩ ⟨1, ![E]⟩ [] [0] [0] 1)
    (idx : IVec ⟨2, ![E, 1]⟩ w) (e : Fin E) (n : Fin N) (hw : (idx (edgeIdx e)).toInt = (n.val : ℤ)) :
    (vecScatterDims N E wf).resultIdx? (ix1 e) idx = some (ix1 n) := by
  have hs : (vecScatterDims N E wf).start (ix1 e) idx 0 = (idx (edgeIdx e)).toInt := by
    unfold ScatterDims.start
    rw [dif_pos (show (0 : Fin 1) ∈ (vecScatterDims N E wf).scatterDimsToOperandDims from List.mem_singleton.mpr rfl)]
    have hsi : (vecScatterDims N E wf).siIdx (ix1 e)
        ⟨List.idxOf (0 : Fin 1) (vecScatterDims N E wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hwin : (vecScatterDims N E wf).window (ix1 e) 0 = 0 := by
    unfold ScatterDims.window
    rw [dif_neg (show ¬ (0 : Fin 1) ∈ (vecScatterDims N E wf).sKept from
      (by decide : ¬ (0 : Fin 1) ∈ (List.finRange 1).filter (fun a => a ∉ ([0] : List (Fin 1)))))]
  have hall : ∀ a, 0 ≤ (vecScatterDims N E wf).start (ix1 e) idx a + (vecScatterDims N E wf).window (ix1 e) a
      ∧ (vecScatterDims N E wf).start (ix1 e) idx a + (vecScatterDims N E wf).window (ix1 e) a
        < (⟨1, ![N]⟩ : Shape).size a := by
    intro a
    obtain rfl : a = 0 := Subsingleton.elim _ _
    have hn := n.isLt
    show 0 ≤ (vecScatterDims N E wf).start (ix1 e) idx 0 + ((vecScatterDims N E wf).window (ix1 e) 0 : ℤ)
      ∧ (vecScatterDims N E wf).start (ix1 e) idx 0 + ((vecScatterDims N E wf).window (ix1 e) 0 : ℤ) < (N : ℤ)
    rw [hs, hwin, hw]; constructor <;> omega
  unfold ScatterDims.resultIdx?
  rw [dif_pos hall]
  refine congrArg some ?_
  funext a
  obtain rfl : a = 0 := Subsingleton.elim _ _
  refine Fin.ext ?_
  show ((vecScatterDims N E wf).start (ix1 e) idx 0 + ((vecScatterDims N E wf).window (ix1 e) 0 : ℤ)).toNat = n.val
  rw [hs, hwin, hw]; omega

/-- The same for any record with the vector-scatter fields. -/
theorem lands_of_word' (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w) (e : Fin E) (n : Fin N) (hw : (idx (edgeIdx e)).toInt = (n.val : ℤ)) :
    d.resultIdx? (ix1 e) idx = some (ix1 n) := by
  obtain ⟨uw, iw, sd, iv, wf⟩ := d
  dsimp only at h1 h2 h3 h4
  subst h1 h2 h3 h4
  exact lands_of_word wf idx e n hw

/-- With a nonnegative operand entry and nonnegative updates, an update that lands on an entry is at most the
    scatter-add's entry there. -/
theorem le_hostScatterAdd_of_lands {s si su : Shape} (d : ScatterDims s si su) (Z : s.Idx → EReal) (idx : IVec si w)
    (u : su.Idx → EReal) (i : s.Idx) (hZ : 0 ≤ Z i) (hu : ∀ j, 0 ≤ u j) (j₀ : su.Idx)
    (hl : d.resultIdx? j₀ idx = some i) : u j₀ ≤ Ideal.hostScatterAdd d Z idx u i := by
  classical
  show u j₀ ≤ Z i + ∑ j ∈ Finset.univ.filter (fun j => d.resultIdx? j idx = some i), u j
  have h1 : u j₀ ≤ ∑ j ∈ Finset.univ.filter (fun j => d.resultIdx? j idx = some i), u j :=
    Finset.single_le_sum (f := u) (fun j _ => hu j) (Finset.mem_filter.mpr ⟨Finset.mem_univ _, hl⟩)
  exact h1.trans (le_add_of_nonneg_left hZ)

/-- The same for the host's scatter-add of arrays of extended reals. -/
theorem le_scatterAdd_of_lands {s si su : Shape} {φ : FTy} (d : ScatterDims s si su) (Z : FVec Ideal s φ) (idx : IVec si w)
    (u : FVec Ideal su φ) (i : s.Idx) (hZ : 0 ≤ Z i) (hu : ∀ j, 0 ≤ u j) (j₀ : su.Idx)
    (hl : d.resultIdx? j₀ idx = some i) : u j₀ ≤ Host.scatterAdd (F := Ideal) d Z idx u i :=
  le_hostScatterAdd_of_lands d Z idx u i hZ hu j₀ hl

end Cert.LibVecScatterLands

end
-- ==== Proof.LibConcatTail.lean ====
/-
  The second piece of a concatenation of two vectors.

  A vector [T] made by joining a vector [A] and a vector [B] reads, at position A + n with n < B, the second vector at n.
-/
import Idealize.ShloMosaic.Lib.ValueIdx
import Idealize.ShloMosaic.Lib.Pipeline.Value

noncomputable section

namespace Cert.LibConcatTail

open Idealize.ShloMosaic Idealize.ShloMosaic.ValueIdx

variable {α : Type}

/-- Position A + n of the join of [A] and [B] is position n of the second vector. -/
theorem concatenate_vec_tail {A B T : Nat} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1)) (n : Fin B) (j : Fin T)
    (hj : j.val = A + n.val) :
    concatenate ⟨1, ![T]⟩ (0 : Fin 1) [⟨⟨1, ![A]⟩, x₁⟩, ⟨⟨1, ![B]⟩, x₂⟩] h (ix1 j) = x₂ (ix1 n) :=
  concatenate_pair_apply_right (0 : Fin 1) x₁ x₂ h (ix1 j) rfl rfl (ix1 n)
    (fun b hb => absurd (Subsingleton.elim _ _) hb) (by show n.val + A = j.val; omega)

end Cert.LibConcatTail

end
-- ==== Proof.EdgeWeights.lean ====
/-
  Every edge weight is a real number, because every node has a self-loop.

  The edge list is the 800000 given edges followed by one self-loop per node: edge 800000 + n runs from node n to node n,
  its destination word being the counter n, which read signed is n (n < 50000 < 2^31). The degree of node n is zero
  plus the sum of the ones of the edges that land on n, so it is at least the one of its self-loop. The reciprocal square
  root of an extended real that is at least one is nonnegative and not +∞, hence real. An edge's weight is the product of
  two entries of that vector (whichever entries the gathers pick), hence real.
-/
import proofs.«161700_j56006373539865_1_alg».proof.Proof.Gen.ReferenceIdeal.Read
import Idealize.ShloMosaic.PureOps.Ideal.Laws
import Idealize.ShloMosaic.Lib.ValueIdx
import Idealize.ShloMosaic.Lib.Pipeline.Value
import Idealize.ShloMosaic.Lib.IdealHost
import proofs.«161700_j56006373539865_1_alg».proof.Proof.LibRowGather
import proofs.«161700_j56006373539865_1_alg».proof.Proof.LibRealSum
import proofs.«161700_j56006373539865_1_alg».proof.Proof.LibVecScatterLands
import proofs.«161700_j56006373539865_1_alg».proof.Proof.LibConcatTail

noncomputable section

open scoped BigOperators

namespace Cert.EdgeWeights

open Idealize.ShloMosaic Idealize.ShloMosaic.ValueIdx Cert.LibRowGather Cert.LibRealSum Cert.LibVecScatterLands
open Cert.ReferenceIdeal Cert.ReferenceIdeal.Read

/-- A 32-bit counter below 50000 reads, signed, as itself. -/
theorem toInt_counter (n : Fin 50000) : (BitVec.ofNat 32 n.val).toInt = (n.val : ℤ) := by
  have hn := n.isLt
  rw [BitVec.toInt_eq_toNat_cond, BitVec.toNat_ofNat]
  have h1 : n.val % 2 ^ 32 = n.val := Nat.mod_eq_of_lt (by omega)
  rw [h1, if_pos (by omega)]

/-- The self-loop of node n is edge 800000 + n. -/
def selfLoop (n : Fin 50000) : Fin 850000 := ⟨800000 + n.val, by have := n.isLt; omega⟩

/-- The destination word of the self-loop of node n, read signed, is n. -/
theorem selfLoop_lands (x1 : (⟨S2x800000, .i32⟩ : BufTy).Contents (Elt Ideal)) (n : Fin 50000) :
    (val_main_v9 (F := Ideal) x1 (edgeIdx (selfLoop n))).toInt = (n.val : ℤ) := by
  have hj : idx_main_v9 (edgeIdx (selfLoop n)) = ix1 (selfLoop n) :=
    funext fun a => Fin.ext (by match a with | ⟨0, _⟩ => rfl)
  rw [val_main_v9_apply, hj]
  unfold val_main_v6
  rw [Cert.LibConcatTail.concatenate_vec_tail (A := 800000) (B := 50000) (T := 850000) _ _ _ n (selfLoop n) rfl,
    val_main_v0_apply]
  exact toInt_counter n

/-- Every degree is at least one: the self-loop's one lands on the node. -/
theorem one_le_degree (x1 : (⟨S2x800000, .i32⟩ : BufTy).Contents (Elt Ideal)) (n : Fin 50000) :
    1 ≤ val_main_v10 (F := Ideal) x1 (ix1 n) := by
  have hone : ∀ j, val_main_v7 (F := Ideal) j = 1 := fun j => by
    rw [val_main_v7_apply, val_main_cst_apply, Ideal.ofBits_def, Ideal.ofBits_one_f32]
  have hz : val_main_v8 (F := Ideal) (ix1 n) = 0 := by
    rw [val_main_v8_apply, val_main_cst_0_apply, Ideal.ofBits_def, Ideal.ofBits_zero_f32]
  have h := le_scatterAdd_of_lands (φ := .f32) scatter_S50000_S850000x1_S850000_n_0_0_1 (val_main_v8 (F := Ideal))
    (val_main_v9 (F := Ideal) x1) (val_main_v7 (F := Ideal)) (ix1 n) (le_of_eq hz.symm)
    (fun j => by rw [hone j]; exact zero_le_one) (ix1 (selfLoop n))
    (lands_of_word' scatter_S50000_S850000x1_S850000_n_0_0_1 rfl rfl rfl rfl _ (selfLoop n) n (selfLoop_lands x1 n))
  rw [hone] at h
  unfold val_main_v10
  exact h

/-- A nonnegative extended real other than +∞ is a real number. -/
theorem isReal_of_nonneg_ne_top {a : EReal} (h0 : 0 ≤ a) (ht : a ≠ ⊤) : IsReal a := by
  induction a using EReal.rec with
  | bot => exact absurd h0 (not_le.mpr EReal.bot_lt_zero)
  | coe r => exact ⟨r, rfl⟩
  | top => exact absurd rfl ht

/-- The reciprocal square roots of the degrees are real numbers. -/
theorem isReal_rsqrt_degree (x1 : (⟨S2x800000, .i32⟩ : BufTy).Contents (Elt Ideal)) (i : S50000.Idx) :
    IsReal (val_main_v11 (F := Ideal) x1 i) := by
  obtain ⟨n, rfl⟩ : ∃ n : Fin 50000, i = ix1 n := ⟨i 0, eq_ix1 i⟩
  rw [val_main_v11_apply, Ideal.hostUnary_rsqrt_def]
  obtain ⟨h0, ht⟩ := rsqrt_of_one_le _ (one_le_degree x1 n)
  exact isReal_of_nonneg_ne_top h0 ht

/-- Every edge weight is a real number. -/
theorem weights_real (x1 : (⟨S2x800000, .i32⟩ : BufTy).Contents (Elt Ideal)) (i : S850000.Idx) :
    IsReal (val_main_v26 (F := Ideal) x1 i) := by
  rw [val_main_v26_apply, Ideal.mulf_def]
  refine IsReal.mul ?_ ?_
  · unfold val_main_v18 Host.gather
    exact isReal_rsqrt_degree x1 _
  · unfold val_main_v25 Host.gather
    exact isReal_rsqrt_degree x1 _

end Cert.EdgeWeights

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«161700_j56006373539865_1_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.FiniteInputs.lean ====
/-
  Under the precondition the feature array and the weight matrix consist of real numbers.

  The precondition is the conjunction of three tests, one per float input: the conjunction over the whole array of
  |entry| < +∞. A conjunction of one-bit words is 1 only if each is, and an array all of whose entries pass the test has
  real entries. (The bias passes too, but the law that joins the two programs never needs it.)
-/
import proofs.«161700_j56006373539865_1_alg».proof.Pre_finite_inputs
import proofs.«161700_j56006373539865_1_alg».proof.Proof.Gen.Pre_finite_inputs
import Idealize.ShloMosaic.Lib.Affine
import Idealize.ShloMosaic.Lib.ValueIdx
import proofs.«161700_j56006373539865_1_alg».proof.Proof.LibRealSum
import proofs.«161700_j56006373539865_1_alg».proof.Proof.LibFiniteAll

noncomputable section

namespace Cert.FiniteInputs

open Idealize.ShloMosaic Cert.LibRealSum Cert.Pre_finite_inputs

/-- If the precondition's word is 1, the features and the weight matrix have real entries. -/
theorem real_of_pre (x : FVec Ideal S50000x128 .f32) (e : IVec S2x800000 32) (w : FVec Ideal S128x128 .f32)
    (b : FVec Ideal S128 .f32) (h : Cert.Pre_finite_inputs.fn (F := Ideal) x e w b = fun _ => 1#1) :
    (∀ i, IsReal (x i)) ∧ (∀ i, IsReal (w i)) := by
  have h0 := congrFun h ValueIdx.ix0
  dsimp only [Cert.Pre_finite_inputs.fn] at h0
  change IntOp.andi (IntOp.andi _ _) _ = 1#1 at h0
  obtain ⟨hxw, _⟩ := IntOp.andi_eq_one.1 h0
  obtain ⟨hx, hw⟩ := IntOp.andi_eq_one.1 hxw
  exact ⟨fun i => Cert.Lib.FiniteAll.all_real x _ _ _ _ hx i, fun i => Cert.Lib.FiniteAll.all_real w _ _ _ _ hw i⟩

end Cert.FiniteInputs

end
-- ==== Proof.LibRowScatterSum.lean ====
/-
  A row scatter-add through an index column, read at an entry as a sum over the edges that land on the row.

  For an operand [N, C], indices [E, 1] and updates [E, C], update (e, c) lands on entry (n, c') exactly when
  the signed index word of e is n and c = c'. So the scatter-add at entry (n, c) is the operand's entry plus the sum,
  over the edges e whose word is n, of the update (e, c); and the same for a vector operand [N] with updates [E].
-/
import Mathlib
import Idealize.ShloMosaic.PureOps.Ideal
import Idealize.ShloMosaic.PureOps.Ideal.Laws
import Idealize.ShloMosaic.Lib.ValueIdx
import proofs.«161700_j56006373539865_1_alg».proof.Proof.LibRowGather

noncomputable section

open scoped BigOperators

namespace Cert.LibRowScatterSum

open Idealize.ShloMosaic Idealize.ShloMosaic.ValueIdx Cert.LibRowGather

variable {N E C w : Nat} (wf : ScatterDims.WF ⟨2, ![N, C]⟩ ⟨2, ![E, 1]⟩ ⟨2, ![E, C]⟩ [1] [0] [0] 1)

/-- The window of update (e, c) starts, on the row axis, at the signed index word of e. -/
theorem start_row (idx : IVec ⟨2, ![E, 1]⟩ w) (e : Fin E) (c : Fin C) :
    (rowScatterDims N E C wf).start (ix2 e c) idx 0 = (idx (edgeIdx e)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = edgeIdx e := by
    funext b; refine Fin.ext ?_
    match b with
    | ⟨0, _⟩ => rfl
    | ⟨1, _⟩ => rfl
  rw [hsi]

/-- … and, on the lane axis, at zero. -/
theorem start_lane (idx : IVec ⟨2, ![E, 1]⟩ w) (e : Fin E) (c : Fin C) :
    (rowScatterDims N E C wf).start (ix2 e c) idx 1 = 0 := by
  unfold ScatterDims.start
  rw [dif_neg (show ¬ (1 : Fin 2) ∈ (rowScatterDims N E C wf).scatterDimsToOperandDims from
    (by decide : ¬ (1 : Fin 2) ∈ ([0] : List (Fin 2))))]

/-- The window coordinate of update (e, c) is zero on the row axis … -/
theorem window_row (e : Fin E) (c : Fin C) : (rowScatterDims N E C wf).window (ix2 e c) 0 = 0 := by
  unfold ScatterDims.window
  rw [dif_neg (show ¬ (0 : Fin 2) ∈ (rowScatterDims N E C wf).sKept from
    (by decide : ¬ (0 : Fin 2) ∈ (List.finRange 2).filter (fun a => a ∉ ([0] : List (Fin 2)))))]

/-- … and its lane on the lane axis. -/
theorem window_lane (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (fun a => a ∉ ([0] : List (Fin 2)))))]
  rfl

/-- Update (e, c) lands on entry (n, c') exactly when the signed word of e is n and the lanes agree. -/
theorem lands_iff (idx : IVec ⟨2, ![E, 1]⟩ w) (e : Fin E) (c : Fin C) (n : Fin N) (c' : Fin C) :
    (rowScatterDims N E C wf).resultIdx? (ix2 e c) idx = some (ix2 n c')
      ↔ (idx (edgeIdx e)).toInt = (n.val : ℤ) ∧ c = c' := by
  constructor
  · exact scatter_row_lands wf idx e c n c'
  · rintro ⟨hw, rfl⟩
    have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        have h0 := start_row wf idx e c
        have h1 := window_row wf e c
        have hn := n.isLt
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, h1, hw]; constructor <;> omega
      | ⟨1, _⟩ =>
        have h0 := start_lane wf idx e c
        have h1 := window_lane wf e c
        have hc := c.isLt
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h0, h1]; constructor <;> omega
    unfold ScatterDims.resultIdx?
    rw [dif_pos hall]
    refine congrArg some ?_
    funext a
    refine Fin.ext ?_
    match a with
    | ⟨0, _⟩ =>
      show ((rowScatterDims N E C wf).start (ix2 e c) idx 0 + ((rowScatterDims N E C wf).window (ix2 e c) 0 : ℤ)).toNat = n.val
      rw [start_row wf idx e c, window_row wf e c, hw]; omega
    | ⟨1, _⟩ =>
      show ((rowScatterDims N E C wf).start (ix2 e c) idx 1 + ((rowScatterDims N E C wf).window (ix2 e c) 1 : ℤ)).toNat = c.val
      rw [start_lane wf idx e c, window_lane wf e c]; omega

/-- The row scatter-add at entry (n, c): the operand's entry plus the updates (e, c) of the edges whose word is n. -/
theorem hostScatterAdd_rows_apply (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) Z idx u (ix2 n c)
      = Z (ix2 n c) + ∑ e ∈ Finset.univ.filter (fun e : Fin E => (idx (edgeIdx e)).toInt = (n.val : ℤ)), u (ix2 e c) := by
  classical
  show Z (ix2 n c) + _ = _
  congr 1
  rw [Finset.sum_filter, sum_idx2, Finset.sum_filter]
  refine Finset.sum_congr rfl fun e _ => ?_
  by_cases hw : (idx (edgeIdx e)).toInt = (n.val : ℤ)
  · rw [if_pos hw, Finset.sum_eq_single c]
    · rw [if_pos ((lands_iff wf idx e c n c).mpr ⟨hw, rfl⟩)]
    · intro c₁ _ hne
      rw [if_neg]
      intro h
      exact hne ((lands_iff wf idx e c₁ n c).mp h).2
    · intro h; exact absurd (Finset.mem_univ c) h
  · rw [if_neg hw]
    refine Finset.sum_eq_zero fun c₁ _ => ?_
    rw [if_neg]
    intro h
    exact hw ((lands_iff wf idx e c₁ n c).mp h).1

end Cert.LibRowScatterSum

end
-- ==== Proof.LibRowDims.lean ====
/-
  Row gathers and row scatter-adds through an index column, for any dimension-number record with the right fields.

  A record of gather (or scatter) dimension numbers is determined by its fields. So the readings of the row gather and of
  the row scatter-add at an entry hold for every record whose fields say "rows through an index column", whatever name a
  program gives that record.
-/
import Mathlib
import Idealize.ShloMosaic.PureOps.Ideal
import Idealize.ShloMosaic.PureOps.Ideal.Laws
import Idealize.ShloMosaic.Lib.ValueIdx
import proofs.«161700_j56006373539865_1_alg».proof.Proof.LibRowGather
import proofs.«161700_j56006373539865_1_alg».proof.Proof.LibRowScatterSum

noncomputable section

open scoped BigOperators

namespace Cert.LibRowDims

open Idealize.ShloMosaic Idealize.ShloMosaic.ValueIdx Cert.LibRowGather

variable {N E C w : Nat}

/-- The row scatter-add at entry (n, c), for any record with the row-scatter fields. -/
theorem hostScatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd d Z idx u (ix2 n c)
      = Z (ix2 n c) + ∑ e ∈ Finset.univ.filter (fun e : Fin E => (idx (edgeIdx e)).toInt = (n.val : ℤ)), u (ix2 e c) := by
  obtain ⟨uw, iw, sd, iv, wf⟩ := d
  dsimp only at h1 h2 h3 h4
  subst h1 h2 h3 h4
  exact Cert.LibRowScatterSum.hostScatterAdd_rows_apply wf Z idx u n c

/-- The row gather at edge e, lane c, for any record with the row-gather fields. -/
theorem gather_row_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 (rowOf N hN (idx (edgeIdx e))) c) := by
  obtain ⟨od, cs, ob, sb, sm, iv, ss, wf⟩ := d
  dsimp only at h1 h2 h3 h4 h5 h6 h7
  subst h1 h2 h3 h4 h5 h6 h7
  exact Cert.LibRowGather.gather_row_apply hN wf x idx e c

end Cert.LibRowDims

end
-- ==== Proof.LibHostScatterRows.lean ====
/-
  The host's row scatter-add and vector scatter-add, read at an entry, for arrays of extended reals given as variables.

  `Host.scatterAdd` over the extended reals is the exact sum: the operand's entry plus the updates that land on it. For
  a row scatter through an index column the updates landing on entry (n, c) are the entries (e, c) of the edges whose
  signed index word is n. Stated for arbitrary arrays of extended reals.
-/
import Mathlib
import Idealize.ShloMosaic.PureOps.Ideal
import Idealize.ShloMosaic.PureOps.Ideal.Laws
import Idealize.ShloMosaic.Lib.ValueIdx
import proofs.«161700_j56006373539865_1_alg».proof.Proof.LibRowGather
import proofs.«161700_j56006373539865_1_alg».proof.Proof.LibRowDims

noncomputable section

open scoped BigOperators

namespace Cert.LibHostScatterRows

open Idealize.ShloMosaic Idealize.ShloMosaic.ValueIdx Cert.LibRowGather

variable {N E C w : Nat} {φ : FTy}

/-- The host's scatter-add over the extended reals is the exact sum. -/
theorem scatterAdd_eq {s si su : Shape} (d : ScatterDims s si su) (Z : FVec Ideal s φ) (idx : IVec si w)
    (u : FVec Ideal su φ) : Host.scatterAdd (F := Ideal) d Z idx u = Ideal.hostScatterAdd d Z idx u := rfl

/-- The host's row scatter-add at entry (n, c), for any record with the row-scatter fields. -/
theorem scatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (Z : FVec Ideal ⟨2, ![N, C]⟩ φ) (idx : IVec ⟨2, ![E, 1]⟩ w) (u : FVec Ideal ⟨2, ![E, C]⟩ φ) (n : Fin N) (c : Fin C) :
    Host.scatterAdd (F := Ideal) d Z idx u (ix2 n c)
      = Z (ix2 n c) + ∑ e ∈ Finset.univ.filter (fun e : Fin E => (idx (edgeIdx e)).toInt = (n.val : ℤ)), u (ix2 e c) := by
  rw [scatterAdd_eq]
  exact Cert.LibRowDims.hostScatterAdd_rows_apply d h1 h2 h3 h4 Z idx u n c

end Cert.LibHostScatterRows

end
-- ==== Proof.ReferenceReads.lean ====
/-
  The reference's result, entry by entry, is the "product first" arrangement of the weighted neighbourhood sum.

  Entry (n, c) of the reference's result is max (· + bias[c]) 0 of a scatter-add into zeros. The scatter-add at (n, c) is
  zero plus the sum, over the edges whose destination word is n, of the update's entry (e, c); that update is the row
  of x · w gathered at the edge's source node, times the edge's weight; and entry (r, c) of x · w is Σ_k x[r, k] · w[k, c].
  The source column, the destination column and the edge weights are the reference's own stages of the edge array.
-/
import proofs.«161700_j56006373539865_1_alg».proof.Proof.Gen.ReferenceIdeal.Read
import Idealize.ShloMosaic.PureOps.Ideal.Laws
import Idealize.ShloMosaic.Lib.ValueIdx
import proofs.«161700_j56006373539865_1_alg».proof.Proof.LibRowGather
import proofs.«161700_j56006373539865_1_alg».proof.Proof.LibRowDims
import proofs.«161700_j56006373539865_1_alg».proof.Proof.LibHostScatterRows
import proofs.«161700_j56006373539865_1_alg».proof.Proof.EdgeSum

noncomputable section

open scoped BigOperators

namespace Cert.ReferenceReads

open Idealize.ShloMosaic Idealize.ShloMosaic.ValueIdx Cert.LibRowGather Cert.EdgeSum
open Cert.ReferenceIdeal Cert.ReferenceIdeal.Read

/-- The bias entry the two broadcasts read at (n, c) is bias[c]. -/
theorem bias_idx (n : Fin 50000) (c : Fin 128) : idx_main_v41 (idx_main_v42 (ix2 n c)) = ix1 c :=
  funext fun a => Fin.ext (by match a with | ⟨0, _⟩ => rfl)

/-- The weight the two broadcasts read at (e, c) is the weight of edge e. -/
theorem weight_idx (e : Fin 850000) (c : Fin 128) : idx_main_v35 (idx_main_v36 (ix2 e c)) = ix1 e :=
  funext fun a => Fin.ext (by match a with | ⟨0, _⟩ => rfl)

/-- In the product x · w at (r, c), the left operand is read at (r, k) … -/
theorem left_idx (r : Fin 50000) (c : Fin 128) (k : Fin 128) : lidx_main_v27 (ix2 r c) k = ix2 r k :=
  funext fun a => Fin.ext (by match a with | ⟨0, _⟩ => rfl | ⟨1, _⟩ => rfl)

/-- … and the right operand at (k, c). -/
theorem right_idx (r : Fin 50000) (c : Fin 128) (k : Fin 128) : ridx_main_v27 (ix2 r c) k = ix2 k c :=
  funext fun a => Fin.ext (by match a with | ⟨0, _⟩ => rfl | ⟨1, _⟩ => rfl)

/-- Entry (r, c) of the product x · w is Σ_k x[r, k] · w[k, c]. -/
theorem product_apply (x0 : (⟨S50000x128, .f32⟩ : BufTy).Contents (Elt Ideal)) (x2 : (⟨S128x128, .f32⟩ : BufTy).Contents (Elt Ideal))
    (r : Fin 50000) (c : Fin 128) :
    val_main_v27 (F := Ideal) x0 x2 (ix2 r c) = ∑ k : Fin 128, x0 (ix2 r k) * x2 (ix2 k c) := by
  rw [val_main_v27_apply]
  exact Finset.sum_congr rfl fun k _ => by rw [left_idx, right_idx]

/-- The update of edge e at lane c: the row of x · w at the edge's source node, times the edge's weight. -/
theorem update_apply (x0 : (⟨S50000x128, .f32⟩ : BufTy).Contents (Elt Ideal)) (x1 : (⟨S2x800000, .i32⟩ : BufTy).Contents (Elt Ideal))
    (x2 : (⟨S128x128, .f32⟩ : BufTy).Contents (Elt Ideal)) (e : Fin 850000) (c : Fin 128) :
    val_main_v37 (F := Ideal) x0 x1 x2 (ix2 e c)
      = (∑ k : Fin 128, x0 (ix2 (node (val_main_v33 (F := Ideal) x1 (edgeIdx e))) k) * x2 (ix2 k c))
        * val_main_v26 (F := Ideal) x1 (ix1 e) := by
  rw [val_main_v37_apply, val_main_v36_apply, val_main_v35_apply, weight_idx]
  unfold val_main_v34
  rw [Cert.LibRowDims.gather_row_apply nodes_pos gather_S50000x128_S850000x1_S850000x128_1_0_n_n_0_1_1128
      rfl rfl rfl rfl rfl rfl rfl, product_apply]
  rfl

/-- The reference's result is the "product first" arrangement over its own source column, destination column and
    edge weights. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    val_main_v44 (F := Ideal) x0 x1 x2 x3
      = productFirst x0 x2 x3 (val_main_v33 (F := Ideal) x1) (val_main_v39 (F := Ideal) x1) (val_main_v26 (F := Ideal) x1) := by
  funext i
  obtain ⟨n, c, rfl⟩ : ∃ (n : Fin 50000) (c : Fin 128), i = ix2 n c := ⟨i 0, i 1, eq_ix2 i⟩
  rw [val_main_v44_apply, val_main_v43_apply, val_main_call0_v0_apply, val_main_call0_cst_apply, val_main_v42_apply,
    val_main_v41_apply, bias_idx, productFirst_apply]
  simp only [Ideal.maximumf_def, Ideal.addf_def, Ideal.ofBits_def, Ideal.ofBits_zero_f32]
  refine congrArg (fun s => max (s + x3 (ix1 c)) 0) ?_
  unfold val_main_v40
  refine (Cert.LibHostScatterRows.scatterAdd_rows_apply scatter_S50000x128_S850000x1_S850000x128_1_0_0_1
    rfl rfl rfl rfl _ _ _ n c).trans ?_
  rw [val_main_v38_apply, val_main_cst_6_apply, Ideal.ofBits_def, Ideal.ofBits_zero_f32]
  refine congrArg (0 + ·) (Finset.sum_congr rfl fun e _ => ?_)
  exact update_apply x0 x1 x2 e c

end Cert.ReferenceReads

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.KernelBlock.lean ====
/-
  One block of the kernel, entry by entry.

  The kernel's body takes a block a of 5000 rows of the aggregated features, the whole weight matrix w : [128, 128] and
  the bias b : [128], and stores max (a · w + b) 0. Over the extended reals the two casts to a narrower float are the
  identity, the product accumulated into the zero splat is the plain sum Σ_k a[p, k] · w[k, q], the bias recast as a
  row and broadcast down the rows reads b[q], and the splat of the zero word is 0. So entry (p, q) of what the body
  stores is max ((Σ_k a[p, k] · w[k, q]) + b[q]) 0.
-/
import proofs.«161700_j56006373539865_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«161700_j56006373539865_1_alg».proof.Proof.LibDotRows

noncomputable section

open scoped BigOperators

namespace Cert.KernelBlock

open Idealize.ShloMosaic Idealize.ShloMosaic.ValueIdx Cert.KernelIdeal

/-- The kernel's product contracts axis 1 of the left operand with axis 0 of the right: the plain product. -/
theorem dot_plain : dot_S5000x128_S128x128_S5000x128_1_0_0_1_n_n = DotDims.plain 5000 128 128 := rfl

/-- Entry (p, q) of the product of the (cast) block with the (cast) matrix into the zero splat. -/
theorem product_apply (a : FVec Ideal S5000x128 .f32) (w : FVec Ideal S128x128 .f32)
    (hc : S5000x128.ShapeCasts S5000x128) (hb : FTy.bf16.bits < FTy.f32.bits) (p : Fin 5000) (q : Fin 128) :
    matmul (F := Ideal) dot_S5000x128_S128x128_S5000x128_1_0_0_1_n_n none
        (truncf .bf16 (shapeCast S5000x128 a hc) hb) (truncf .bf16 w hb) (constant S5000x128 .f32 0x00000000#32) (ix2 p q)
      = ∑ k : Fin 128, a (ix2 p k) * w (ix2 k q) := by
  rw [dot_plain]
  refine (Cert.Lib.DotRows.matmul_plain_apply _ _ p q).trans ?_
  refine Finset.sum_congr rfl fun k _ => ?_
  rw [truncf_apply, truncf_apply, shapeCast_self]

/-- The bias recast as a row and broadcast down the rows reads, at (p, q), the bias at q. -/
theorem bias_apply (b : FVec Ideal S128 .f32) (hc : S128.ShapeCasts S1x128) (hb : S1x128.Broadcasts S5000x128)
    (p : Fin 5000) (q : Fin 128) :
    broadcastTo S5000x128 (shapeCast S1x128 b hc) hb (ix2 p q) = b (ix1 q) := by
  rw [broadcastTo_1b_ab_apply, shapeCast_a_1a_apply]

/-- Entry (p, q) of what the body stores: max ((Σ_k a[p, k] · w[k, q]) + b[q]) 0. -/
theorem stored_apply (a : Vec Ideal S5000x128 .f32) (w : Vec Ideal S128x128 .f32) (b : Vec Ideal S128 .f32)
    (p : Fin 5000) (q : Fin 128) :
    Gen.k0_pay1 (F := Ideal) a w b (ix2 p q) = max ((∑ k : Fin 128, a (ix2 p k) * w (ix2 k q)) + b (ix1 q)) 0 := by
  unfold Gen.k0_pay1
  rw [maximumf_apply, addf_apply, broadcast_apply, product_apply, bias_apply]
  show max _ (Ideal.ofBits .f32 0x00000000#32) = _
  rw [Ideal.ofBits_zero_f32]

end Cert.KernelBlock

end
-- ==== Proof.KernelValue.lean ====
/-
  The kernel's result array is the dense layer of the array its first window stages.

  The grid has ten points; point t takes rows 5000·t … 5000·t + 4999 of the staged array, the whole weight matrix and the
  whole bias, and writes rows 5000·t … 5000·t + 4999 of the result. Entry (p, q) of what point t stores is
  max ((Σ_k a[p, k] · w[k, q]) + b[q]) 0 of its block a, and row p of the block is row 5000·t + p of the staged array, so
  point t writes block t of the dense layer of the whole staged array. The ten blocks cover the result (row r lies in
  block r / 5000), so the result array is the dense layer.
-/
import proofs.«161700_j56006373539865_1_alg».proof.Proof.Gen.KernelIdeal.Value
import Idealize.ShloMosaic.Lib.Pipeline.Value
import Idealize.ShloMosaic.Lib.ValueIdx
import proofs.«161700_j56006373539865_1_alg».proof.Proof.KernelBlock
import proofs.«161700_j56006373539865_1_alg».proof.Proof.EdgeSum

noncomputable section

open scoped BigOperators

namespace Cert.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.EdgeSum

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The index maps over the grid: the staged array's block moves with the result's along the rows; the matrix and the
    bias stay at their one block; nothing moves along the lanes; there are ten row blocks. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every one of the ten row blocks is some point's. -/
theorem every_block : ∀ q : Fin 10, ∃ t : Fin cfg0.N, win0_3.index t = ![q.val, 0] :=
  (by decide +kernel : ∀ q : Fin 10, ∃ t : Fin grid0.N, win0_3.index t = ![q.val, 0])

/-- If row p of a block is row r of the whole array (and the block's matrix and bias are the whole ones), the block's
    stored entry (p, q) is the dense layer's entry (r, q). -/
theorem layer_of_block (A : (⟨2, ![50000, 128]⟩ : Shape).Idx → EReal) (W : (⟨2, ![128, 128]⟩ : Shape).Idx → EReal)
    (B : (⟨1, ![128]⟩ : Shape).Idx → EReal) (a : (⟨2, ![5000, 128]⟩ : Shape).Idx → EReal)
    (w : (⟨2, ![128, 128]⟩ : Shape).Idx → EReal) (b : (⟨1, ![128]⟩ : Shape).Idx → EReal)
    (r : Fin 50000) (p : Fin 5000) (q : Fin 128)
    (ha : ∀ k : Fin 128, a (ix2 p k) = A (ix2 r k)) (hw : ∀ k : Fin 128, w (ix2 k q) = W (ix2 k q))
    (hb : b (ix1 q) = B (ix1 q)) :
    max ((∑ k : Fin 128, a (ix2 p k) * w (ix2 k q)) + b (ix1 q)) 0 = layer A W B (ix2 r q) := by
  rw [layer_apply, hb]
  refine congrArg (fun s : EReal => max (s + B (ix1 q)) 0) (Finset.sum_congr rfl fun k _ => ?_)
  rw [ha k, hw k]

/-- Row p, lane q of the result's block at point t is row 5000·(block index) + p, lane q of the array. -/
theorem read_result (t : Fin cfg0.N) (X : S50000x128.Idx → EReal) (p : Fin 5000) (q : Fin 128)
    (hrow : win0_3.index t (0 : Fin 2) * 5000 + p.val < 50000) :
    ((cfg0.win 3).blk t).view.read (Elt Ideal) X (ix2 p q)
      = X (ix2 (⟨win0_3.index t (0 : Fin 2) * 5000 + p.val, hrow⟩ : Fin 50000) q) := by
  obtain ⟨e0, e1, e2, e3, e4, e5, e6⟩ := block_indices t
  show X (((cfg0.win 3).blk t).view.emb (ix2 p q)) = _
  refine congrArg X ?_
  funext a; apply Fin.ext
  match a with
  | ⟨0, _⟩ => show win0_3.index t (0 : Fin 2) * 5000 + 1 * p.val = win0_3.index t (0 : Fin 2) * 5000 + p.val; omega
  | ⟨1, _⟩ => show win0_3.index t (1 : Fin 2) * 128 + 1 * q.val = q.val; omega

/-- Row p, lane k of the staged array's block at point t is the same row of the array as the result's block has. -/
theorem read_staged (t : Fin cfg0.N) (X : S50000x128.Idx → EReal) (p : Fin 5000) (k : Fin 128)
    (hrow : win0_3.index t (0 : Fin 2) * 5000 + p.val < 50000) :
    ((cfg0.win 0).blk t).view.read (Elt Ideal) X (ix2 p k)
      = X (ix2 (⟨win0_3.index t (0 : Fin 2) * 5000 + p.val, hrow⟩ : Fin 50000) k) := by
  obtain ⟨e0, e1, e2, e3, e4, e5, e6⟩ := block_indices t
  show X (((cfg0.win 0).blk t).view.emb (ix2 p k)) = _
  refine congrArg X ?_
  funext a; apply Fin.ext
  match a with
  | ⟨0, _⟩ => show win0_0.index t (0 : Fin 2) * 5000 + 1 * p.val = win0_3.index t (0 : Fin 2) * 5000 + p.val; omega
  | ⟨1, _⟩ => show win0_0.index t (1 : Fin 2) * 128 + 1 * k.val = k.val; omega

/-- The weight matrix's one block is the matrix. -/
theorem read_matrix (t : Fin cfg0.N) (X : S128x128.Idx → EReal) (k q : Fin 128) :
    ((cfg0.win 1).blk t).view.read (Elt Ideal) X (ix2 k q) = X (ix2 k q) := by
  obtain ⟨e0, e1, e2, e3, e4, e5, e6⟩ := block_indices t
  show X (((cfg0.win 1).blk t).view.emb (ix2 k q)) = _
  refine congrArg X ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias's one block is the bias. -/
theorem read_bias (t : Fin cfg0.N) (X : S128.Idx → EReal) (q : Fin 128) :
    ((cfg0.win 2).blk t).view.read (Elt Ideal) X (ix1 q) = X (ix1 q) := by
  obtain ⟨e0, e1, e2, e3, e4, e5, e6⟩ := block_indices t
  show X (((cfg0.win 2).blk t).view.emb (ix1 q)) = _
  refine congrArg X ?_
  funext a; apply Fin.ext
  match a with
  | ⟨0, _⟩ => show win0_2.index t (0 : Fin 1) * 128 + 1 * q.val = q.val; omega

/-- WHAT POINT t WRITES BACK is block t of the dense layer of the arrays as the region finds them. -/
theorem flushed_eq (c : Dev nD) (t : Fin cfg0.N) :
    (dats m 0 c).flushed 3 t
      = ((cfg0.win 3).blk t).view.read (Elt Ideal) (layer (V m c main_v39) (V m c main_arg2) (V m c main_arg3)) := by
  rw [Cert.KernelIdeal.Value.flushed3]
  unfold out0_3
  rw [View.canon_unit_zero origin2]
  simp only [View.ld_unit_zero (S := S5000x128) origin2, View.ld_unit_zero (S := S128x128) origin2,
    View.ld_unit_zero (S := S128) origin1]
  obtain ⟨e0, e1, e2, e3, e4, e5, e6⟩ := block_indices t
  funext j
  obtain ⟨p, q, rfl⟩ : ∃ (p : Fin 5000) (q : Fin 128), j = ix2 p q := ⟨j 0, j 1, eq_ix2 j⟩
  have hp : p.val < 5000 := p.isLt
  have hrow : win0_3.index t (0 : Fin 2) * 5000 + p.val < 50000 := by omega
  refine (Cert.KernelBlock.stored_apply (iblk m c 0 t) (iblk m c 1 t) (iblk m c 2 t) p q).trans ?_
  rw [read_result t _ p q hrow]
  exact layer_of_block (V m c main_v39) (V m c main_arg2) (V m c main_arg3) (iblk m c 0 t) (iblk m c 1 t) (iblk m c 2 t)
    ⟨win0_3.index t (0 : Fin 2) * 5000 + p.val, hrow⟩ p q
    (fun k => read_staged t (V m c main_v39) p k hrow) (fun k => read_matrix t (V m c main_arg2) k q)
    (read_bias t (V m c main_arg3) q)

/-- An index of the result is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v40).slice (win0_3.rect t)).set ↔ _
  rw [View.set_slice_whole, Rect.mem_set_unit]
  exact Iff.rfl

/-- Every index of the result is in some point's block: row r is in block r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := every_block ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE RESULT ARRAY after the run: the dense layer of the staged array, the weight matrix and the bias. -/
theorem final (c : Dev nD) :
    (dats m 0 c).arrAt 3 cfg0.N = layer (V m c main_v39) (V m c main_arg2) (V m c main_arg3) :=
  (dats m 0 c).arrAt_eq_of_cover 3 (layer (V m c main_v39) (V m c main_arg2) (V m c main_arg3))
    (fun t _ => flushed_eq m c t) covered

end Cert.KernelValue

end
-- ==== Proof.KernelStaged.lean ====
/-
  The array the kernel's first window stages is the weighted neighbourhood sum of the feature rows.

  Before its one region the kernel's program computes, on the host, the same source column, destination column and edge
  weights as the reference (the same operations of the edge array, in the same order), gathers the rows of x at the
  sources, scales each by its edge's weight and scatter-adds the scaled rows into zeros through the destination column.
  Entry (n, k) of the result is therefore zero plus the sum, over the edges whose destination word is n, of
  x[src e, k] · nrm[e].
-/
import proofs.«161700_j56006373539865_1_alg».proof.Proof.Gen.KernelIdeal.Frame
import proofs.«161700_j56006373539865_1_alg».proof.Proof.Gen.ReferenceIdeal.Read
import Idealize.ShloMosaic.Lib.StableHlo.Run
import Idealize.ShloMosaic.PureOps.Ideal.Laws
import Idealize.ShloMosaic.Lib.ValueIdx
import proofs.«161700_j56006373539865_1_alg».proof.Proof.LibRowGather
import proofs.«161700_j56006373539865_1_alg».proof.Proof.LibRowDims
import proofs.«161700_j56006373539865_1_alg».proof.Proof.LibHostScatterRows
import proofs.«161700_j56006373539865_1_alg».proof.Proof.EdgeSum
import proofs.«161700_j56006373539865_1_alg».proof.Proof.ReferenceReads

noncomputable section

open scoped BigOperators

namespace Cert.KernelStaged

open Idealize.ShloMosaic Idealize.ShloMosaic.TcCoe Idealize.SL.Sem Idealize.ShloMosaic.StableHlo
open Idealize.ShloMosaic.ValueIdx Cert.LibRowGather Cert.EdgeSum
open Cert.ReferenceIdeal.Read

/-- The scatter-add of the gathered, scaled rows, over the reference's stages of the edge array. -/
def scatteredRows (x0 : FVec Ideal Cert.ReferenceIdeal.S50000x128 .f32) (x1 : IVec Cert.ReferenceIdeal.S2x800000 32) :
    FVec Ideal Cert.ReferenceIdeal.S50000x128 .f32 :=
  Host.scatterAdd (F := Ideal) (φ := .f32) Cert.ReferenceIdeal.scatter_S50000x128_S850000x1_S850000x128_1_0_0_1
    (val_main_v38 (F := Ideal)) (val_main_v39 (F := Ideal) x1)
    (mulf (F := Ideal) (φ := .f32)
      (Host.gather Cert.ReferenceIdeal.gather_S50000x128_S850000x1_S850000x128_1_0_n_n_0_1_1128 x0 (val_main_v33 (F := Ideal) x1))
      (val_main_v36 (F := Ideal) x1))

/-- Entry by entry it is the weighted sum of the source rows of the landing edges. -/
theorem scatteredRows_eq (x0 : FVec Ideal Cert.ReferenceIdeal.S50000x128 .f32) (x1 : IVec Cert.ReferenceIdeal.S2x800000 32) :
    scatteredRows x0 x1
      = agg x0 (val_main_v33 (F := Ideal) x1) (val_main_v39 (F := Ideal) x1) (val_main_v26 (F := Ideal) x1) := by
  funext i
  obtain ⟨n, k, rfl⟩ : ∃ (n : Fin 50000) (k : Fin 128), i = ix2 n k := ⟨i 0, i 1, eq_ix2 i⟩
  unfold scatteredRows
  refine (Cert.LibHostScatterRows.scatterAdd_rows_apply Cert.ReferenceIdeal.scatter_S50000x128_S850000x1_S850000x128_1_0_0_1
    rfl rfl rfl rfl _ _ _ n k).trans ?_
  rw [val_main_v38_apply, val_main_cst_6_apply, Ideal.ofBits_def, Ideal.ofBits_zero_f32, agg_apply']
  refine congrArg (0 + ·) (Finset.sum_congr rfl fun e _ => ?_)
  rw [mulf_apply, Cert.LibRowDims.gather_row_apply nodes_pos
      Cert.ReferenceIdeal.gather_S50000x128_S850000x1_S850000x128_1_0_n_n_0_1_1128 rfl rfl rfl rfl rfl rfl rfl,
    val_main_v36_apply, val_main_v35_apply, Cert.ReferenceReads.weight_idx]

open Cert.KernelIdeal Cert.KernelIdeal.Gen

variable (m : (ℓ : Loc nD τ sig) → Buf (Elt Ideal) ℓ)

set_option maxHeartbeats 1000000 in
/-- The host operations before the region leave, in the array the first window stages, that scatter-add: the kernel's
    program applies to the edge array the operations the reference applies. -/
theorem staged_term (c : Dev nD) :
    (V m c main_v39 : S50000x128.Idx → EReal)
      = scatteredRows (m ((c : Thread nD τ).loc main_arg0)) (m ((c : Thread nD τ).loc main_arg1)) := by
  unfold scatteredRows
  dsimp only [V, hostOps0]
  after_results_simp
  rfl

/-- The staged array is the weighted neighbourhood sum. -/
theorem staged_eq (c : Dev nD) :
    (V m c main_v39 : S50000x128.Idx → EReal)
      = agg (m ((c : Thread nD τ).loc main_arg0))
          (val_main_v33 (F := Ideal) (m ((c : Thread nD τ).loc main_arg1)))
          (val_main_v39 (F := Ideal) (m ((c : Thread nD τ).loc main_arg1)))
          (val_main_v26 (F := Ideal) (m ((c : Thread nD τ).loc main_arg1))) :=
  (staged_term m c).trans (scatteredRows_eq _ _)

end Cert.KernelStaged

end
-- ==== Proof.KernelRun.lean ====
/-
  The kernel's run, with its result array named: the dense layer of the weighted neighbourhood sum ("sum first").

  The run leaves in the result array the dense layer of what the first window staged, of the weight matrix and of the
  bias as the region found them; the staged array is the weighted neighbourhood sum of the feature rows, and no host
  operation before the region writes the weight matrix or the bias.
-/
import proofs.«161700_j56006373539865_1_alg».proof.Proof.Gen.KernelIdeal.Value
import proofs.«161700_j56006373539865_1_alg».proof.Proof.Gen.ReferenceIdeal.Read
import proofs.«161700_j56006373539865_1_alg».proof.Proof.EdgeSum
import proofs.«161700_j56006373539865_1_alg».proof.Proof.KernelValue
import proofs.«161700_j56006373539865_1_alg».proof.Proof.KernelStaged

noncomputable section

namespace Cert.KernelRun

open Cert.KernelIdeal Cert.KernelIdeal.Gen Idealize.ShloMosaic Idealize.ShloMosaic.TcCoe Idealize.SL.Sem
open Cert.EdgeSum Cert.ReferenceIdeal.Read

variable (m : (ℓ : Loc nD τ sig) → Buf (Elt Ideal) ℓ) (ρ : Dev nD → PrngReg)

/-- The "sum first" arrangement over a launch memory's four argument arrays, the source column, destination column and
    edge weights being the reference's stages of the edge array. -/
def result (c : Dev nD) : S50000x128.Idx → EReal :=
  sumFirst (m ((c : Thread nD τ).loc main_arg0)) (m ((c : Thread nD τ).loc main_arg2)) (m ((c : Thread nD τ).loc main_arg3))
    (val_main_v33 (F := Ideal) (m ((c : Thread nD τ).loc main_arg1)))
    (val_main_v39 (F := Ideal) (m ((c : Thread nD τ).loc main_arg1)))
    (val_main_v26 (F := Ideal) (m ((c : Thread nD τ).loc main_arg1)))

/-- The dense layer of the arrays as the region finds them is that arrangement. -/
theorem layer_eq (c : Dev nD) :
    layer (V m c main_v39) (V m c main_arg2) (V m c main_arg3) = result m c := by
  rw [Cert.KernelStaged.staged_eq m c, V_main_arg2 m c, V_main_arg3 m c]
  rfl

/-- The kernel's run: the result array at the "sum first" arrangement, the arguments unchanged. -/
theorem run : θ_run defs (onTc (τ := τ) (main (F := Ideal))) ⟨m, fun _ => 0, ρ⟩ fun r => ∀ c : Dev nD,
      r.2.mem ((c : Thread nD τ).loc main_v40) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun r h c => ⟨(h c).1.trans ((Cert.KernelValue.final m c).trans (layer_eq m c)), (h c).2⟩)
    (Cert.KernelIdeal.Value.run_blocks m ρ)

end Cert.KernelRun

end
-- ==== Proof.lean ====
/- The proof of `Cert.Claim` (proofs.«161700_j56006373539865_1_alg».proof.Defs): a graph convolution layer with self-loops and the symmetric
   normalisation, computed with the weight matrix applied AFTER the neighbourhood sum (the kernel: the sum on the host, then
   one dense layer max (a · w + b) 0 on ten row blocks) and BEFORE it (the reference).

   Both programs compute from the edge array the same source column, destination column and edge weights
   nrm[e] = d[src e] · d[dst e], d = 1 / sqrt(degree). Entry (n, c) of the result is
       max ((Σ_k (0 + Σ_{e lands on n} x[src e, k] · nrm[e]) · w[k, c]) + b[c]) 0          (kernel, Proof/KernelRun.lean)
       max ((0 + Σ_{e lands on n} (Σ_k x[src e, k] · w[k, c]) · nrm[e]) + b[c]) 0          (reference, Proof/ReferenceReads.lean)
   and the two agree because every number in the double sum is real (Proof/EdgeSum.lean): the features and the weight
   matrix by the precondition (Proof/FiniteInputs.lean), the edge weights because every node has a self-loop, so every
   degree is at least one and its reciprocal square root is a positive real (Proof/EdgeWeights.lean).
   The three frames are the generated ones (the reference's is its generated run with the result dropped); the
   idealization rewrote nothing, so `preserves` is `True`. -/
import proofs.«161700_j56006373539865_1_alg».proof.Defs
import proofs.«161700_j56006373539865_1_alg».proof.Proof.Gen.Kernel
import proofs.«161700_j56006373539865_1_alg».proof.Proof.Gen.Kernel.Frame
import proofs.«161700_j56006373539865_1_alg».proof.Proof.Gen.KernelIdeal
import proofs.«161700_j56006373539865_1_alg».proof.Proof.Gen.KernelIdeal.Frame
import proofs.«161700_j56006373539865_1_alg».proof.Proof.Gen.KernelIdeal.Value
import proofs.«161700_j56006373539865_1_alg».proof.Proof.Gen.ReferenceIdeal
import proofs.«161700_j56006373539865_1_alg».proof.Proof.Gen.ReferenceIdeal.Run
import proofs.«161700_j56006373539865_1_alg».proof.Proof.Gen.ReferenceIdeal.Read
import proofs.«161700_j56006373539865_1_alg».proof.Proof.Gen.Pre_finite_inputs
import proofs.«161700_j56006373539865_1_alg».proof.Proof.EdgeSum
import proofs.«161700_j56006373539865_1_alg».proof.Proof.EdgeWeights
import proofs.«161700_j56006373539865_1_alg».proof.Proof.FiniteInputs
import proofs.«161700_j56006373539865_1_alg».proof.Proof.ReferenceReads
import proofs.«161700_j56006373539865_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: the kernel's run leaves the "sum first" arrangement, the reference's the
    "product first" one of arguments that agree, and under the precondition every factor in the double sum is real. -/
theorem algebraic : Cert.algebraic_KernelIdeal_ReferenceIdeal := by
  intro m ρ m' ρ' hpre hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.FiniteInputs.real_of_pre _ _ _ _ (hpre c)
  rw [Cert.ReferenceIdeal.Read.val_main_v44_eq, Cert.ReferenceReads.result_eq, (hagree c).1, (hagree c).2.1,
    (hagree c).2.2.1, (hagree c).2.2.2]
  exact (Cert.EdgeSum.sumFirst_eq_productFirst _ _ _ _ _ _ hx hw (Cert.EdgeWeights.weights_real _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
